-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S64x1024x1024 : Shape := ⟨3, ![64, 1024, 1024]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256x1 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg10
  let main_cst_18 : FVec F S_ .f32 := constant S_ .f32 0x7F800000#32
  let main_v50 : FVec F S256x1 .f32 := broadcastInDim S256x1 ![] bcast_S_S256x1 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x1 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x1024x128 .f32) (main_arg1 : FVec F S64x1024x1024 .f32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x1 .f32) (main_arg11 : FVec F S1 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S64x1024x128 : Shape := ⟨3, ![64, 1024, 128]⟩
abbrev S64x1024x1024 : Shape := ⟨3, ![64, 1024, 1024]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x256 : Shape := ⟨2, ![1, 256]⟩
abbrev S64x1024x256 : Shape := ⟨3, ![64, 1024, 256]⟩
abbrev S1x1024x128 : Shape := ⟨3, ![1, 1024, 128]⟩
abbrev S1x1024x1024 : Shape := ⟨3, ![1, 1024, 1024]⟩
abbrev S1x1024x256 : Shape := ⟨3, ![1, 1024, 256]⟩
abbrev S1024x128 : Shape := ⟨2, ![1024, 128]⟩
abbrev S1024x256 : Shape := ⟨2, ![1024, 256]⟩
abbrev S1024x1024 : Shape := ⟨2, ![1024, 1024]⟩
abbrev S64x1x256 : Shape := ⟨3, ![64, 1, 256]⟩
abbrev S1x1x256 : Shape := ⟨3, ![1, 1, 256]⟩
abbrev S64x256 : Shape := ⟨2, ![64, 256]⟩
abbrev S64x1 : Shape := ⟨2, ![64, 1]⟩
abbrev S1x1 : Shape := ⟨2, ![1, 1]⟩

abbrev nBuf : Space → Nat
  | .hbm => 29
  | .vmem => 16
  | .smem => 0
  | _ => 0

abbrev bufTy : (tb : Table) → Fin (tcTables nBuf tb) → BufTy
  | .hbm, ⟨0, _⟩ => ⟨S64x1024x128, .f32⟩
  | .hbm, ⟨1, _⟩ => ⟨S64x1024x1024, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x256, .f32⟩
  | .hbm, ⟨13, _⟩ => ⟨S1x256, .f32⟩
  | .hbm, ⟨14, _⟩ => ⟨S64x1024x256, .bf16⟩
  | .hbm, ⟨15, _⟩ => ⟨S64x1x256, .f32⟩
  | .hbm, ⟨16, _⟩ => ⟨S64x256, .f32⟩
  | .hbm, ⟨17, _⟩ => ⟨S64x256, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S1x256, .f32⟩
  | .hbm, ⟨23, _⟩ => ⟨S64x256, .f32⟩
  | .hbm, ⟨24, _⟩ => ⟨S64x256, .f32⟩
  | .hbm, ⟨25, _⟩ => ⟨S64x1, .f32⟩
  | .hbm, ⟨26, _⟩ => ⟨S1x1, .f32⟩
  | .hbm, ⟨27, _⟩ => ⟨S64x1, .f32⟩
  | .hbm, ⟨28, _⟩ => ⟨S64x1, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S128x256, .f32⟩
  | .local _ .vmem, ⟨5, _⟩ => ⟨S1x256, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x1024, .f32⟩
  | .local _ .vmem, ⟨11, _⟩ => ⟨S1x1024x1024, .f32⟩
  | .local _ .vmem, ⟨12, _⟩ => ⟨S256x256, .f32⟩
  | .local _ .vmem, ⟨13, _⟩ => ⟨S1x256, .f32⟩
  | .local _ .vmem, ⟨14, _⟩ => ⟨S1x1x256, .f32⟩
  | .local _ .vmem, ⟨15, _⟩ => ⟨S1x1x256, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S256_S1x256 : S256.ShapeCasts S1x256
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S256x256_S256x256_0_0 : ∀ a, (![0, 0] : Fin 2 → Nat) a + S256x256.size a ≤ S256x256.size a
  h_S256x256 : 0 < S256x256.numel
  reduces_S1024x256_S256 : S1024x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S64x1x256_S64x256 : S64x1x256.ShapeCasts S64x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S1024x128_S128x256_S1024x256_1_0_0_1_n_n_wf : DotDims.WF S1024x128 S128x256 S1024x256 [1] [0] [0] [1] [] []
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x1024x128.size a
  hwx0_0 : ∀ i : grid0.Coords, EltTy.bits .f32 = 32 ∨ (Rect.block (s := S64x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S64x1024x256.size a
  hwx0_4 : ∀ i : grid0.Coords, EltTy.bits .bf16 = 32 ∨ (Rect.block (s := S64x1024x256) S1x1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S64x1024x256.size a
  hwx1_0 : ∀ i : grid1.Coords, EltTy.bits .bf16 = 32 ∨ (Rect.block (s := S64x1024x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S64x1024x1024.size a
  hwx1_1 : ∀ i : grid1.Coords, EltTy.bits .f32 = 32 ∨ (Rect.block (s := S64x1024x1024) S1x1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256.size a ≤ S64x1x256.size a
  hwx1_4 : ∀ i : grid1.Coords, EltTy.bits .f32 = 32 ∨ (Rect.block (s := S64x1x256) S1x1x256.size (cc1_transform_4 i) (hinb1_4 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x1024x128 : Shape := ⟨3, ![64, 1024, 128]⟩
abbrev S64x1024x1024 : Shape := ⟨3, ![64, 1024, 1024]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S64x1024x256 : Shape := ⟨3, ![64, 1024, 256]⟩
abbrev S1x1x256 : Shape := ⟨3, ![1, 1, 256]⟩
abbrev S_ : Shape := ⟨0, ![]⟩
abbrev S64x256 : Shape := ⟨2, ![64, 256]⟩
abbrev S1x256 : Shape := ⟨2, ![1, 256]⟩
abbrev S64x1 : Shape := ⟨2, ![64, 1]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x1024x1024, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S64x1024x256, .f32⟩
  | .hbm, ⟨13, _⟩ => ⟨S64x1024x256, .f32⟩
  | .hbm, ⟨14, _⟩ => ⟨S1x1x256, .f32⟩
  | .hbm, ⟨15, _⟩ => ⟨S64x1024x256, .f32⟩
  | .hbm, ⟨16, _⟩ => ⟨S64x1024x256, .f32⟩
  | .hbm, ⟨17, _⟩ => ⟨S_, .f32⟩
  | .hbm, ⟨18, _⟩ => ⟨S64x1024x256, .f32⟩
  | .hbm, ⟨19, _⟩ => ⟨S64x1024x256, .f32⟩
  | .hbm, ⟨20, _⟩ => ⟨S64x1024x256, .f32⟩
  | .hbm, ⟨21, _⟩ => ⟨S64x1024x256, .f32⟩
  | .hbm, ⟨22, _⟩ => ⟨S1x1x256, .f32⟩
  | .hbm, ⟨23, _⟩ => ⟨S64x1024x256, .f32⟩
  | .hbm, ⟨24, _⟩ => ⟨S64x1024x256, .f32⟩
  | .hbm, ⟨25, _⟩ => ⟨S_, .f32⟩
  | .hbm, ⟨26, _⟩ => ⟨S64x1024x256, .f32⟩
  | .hbm, ⟨27, _⟩ => ⟨S64x1024x256, .f32⟩
  | .hbm, ⟨28, _⟩ => ⟨S_, .f32⟩
  | .hbm, ⟨29, _⟩ => ⟨S64x256, .f32⟩
  | .hbm, ⟨30, _⟩ => ⟨S_, .f32⟩
  | .hbm, ⟨31, _⟩ => ⟨S64x256, .f32⟩
  | .hbm, ⟨32, _⟩ => ⟨S64x256, .f32⟩
  | .hbm, ⟨33, _⟩ => ⟨S64x256, .f32⟩
  | .hbm, ⟨34, _⟩ => ⟨S1x256, .f32⟩
  | .hbm, ⟨35, _⟩ => ⟨S64x256, .f32⟩
  | .hbm, ⟨36, _⟩ => ⟨S64x256, .f32⟩
  | .hbm, ⟨37, _⟩ => ⟨S64x256, .f32⟩
  | .hbm, ⟨38, _⟩ => ⟨S1x256, .f32⟩
  | .hbm, ⟨39, _⟩ => ⟨S64x256, .f32⟩
  | .hbm, ⟨40, _⟩ => ⟨S64x256, .f32⟩
  | .hbm, ⟨41, _⟩ => ⟨S64x1, .f32⟩
  | .hbm, ⟨42, _⟩ => ⟨S1x1, .f32⟩
  | .hbm, ⟨43, _⟩ => ⟨S64x1, .f32⟩
  | .hbm, ⟨44, _⟩ => ⟨S64x1, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  bcast_S_S64x1024x256 : S_.BroadcastsInDim S64x1024x256 (![] : Fin 0 → Fin S64x1024x256.rank)
  reducesTo_S64x1024x256_S64x256_d1 : S64x1024x256.ReducesTo [1] S64x256
  h_S_ : 0 < S_.numel
  bcast_S_S64x256 : S_.BroadcastsInDim S64x256 (![] : Fin 0 → Fin S64x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S64x1024x128_S128x256_S64x1024x256_2_0_01_1_n_n_wf : DotDims.WF S64x1024x128 S128x256 S64x1024x256 [2] [0] [0, 1] [1] [] []
  dot_S64x1024x1024_S64x1024x256_S64x1024x256_2_1_1_2_0_0_wf : DotDims.WF S64x1024x1024 S64x1024x256 S64x1024x256 [2] [1] [1] [2] [0] [0]
  dot_S64x1024x256_S256x256_S64x1024x256_2_0_01_1_n_n_wf : DotDims.WF S64x1024x256 S256x256 S64x1024x256 [2] [0] [0, 1] [1] [] []
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []

variable [Facts₀]

def dot_S64x1024x128_S128x256_S64x1024x256_2_0_01_1_n_n : DotDims S64x1024x128 S128x256 S64x1024x256 where
  lhsContracting := [2]
  rhsContracting := [0]
  lhsNonContracting := [0, 1]
  rhsNonContracting := [1]
  lhsBatch := []
  rhsBatch := []
  wf := dot_S64x1024x128_S128x256_S64x1024x256_2_0_01_1_n_n_wf
def dot_S64x1024x1024_S64x1024x256_S64x1024x256_2_1_1_2_0_0 : DotDims S64x1024x1024 S64x1024x256 S64x1024x256 where
  lhsContracting := [2]
  rhsContracting := [1]
  lhsNonContracting := [1]
  rhsNonContracting := [2]
  lhsBatch := [0]
  rhsBatch := [0]
  wf := dot_S64x1024x1024_S64x1024x256_S64x1024x256_2_1_1_2_0_0_wf
def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.KernelRun.lean ====
/-
  The idealized kernel's run with every buffer named.

  The program is four segments in a row: two host reshapes (each bias vector made a row), the first pallas_call, the
  second pallas_call, and a host tail (the pooled block flattened, then three dense layers). Running the segments
  from the launch memory leaves every buffer of the TensorCore at the contents obtained by folding the segments over
  the launch memory: a host stretch applies its operations, a pallas_call replaces its arrays by what its
  write-backs leave and keeps every other buffer. So every weakly fair execution ends with the result buffer at the
  fold's value there, and with each argument as launched.
-/
import proofs.«135592_j81432579932318_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the segments' fold gives it. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result buffer and the arguments: the result at the fold's value, each argument as
    launched. -/
theorem run_result : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v16 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩)
    (run_bufs m ρ)

end Cert.KernelIdeal.Run

end
-- ==== Proof.GcnSpec.lean ====
/-
  The mathematics of the two-layer graph convolution, free of any program.

  One layer on one graph of `N` nodes: from node features `x : N × K`, an adjacency matrix `a : N × N`, weights
  `w : K × H` and a bias `b : H`, the entry `(n, h)` of the layer's output is
      max (∑ m, a n m * (∑ f, x m f * w f h) + b h) 0,
  the features first multiplied by the weights, the result mixed along the graph's edges, the bias added and the
  negative part cut off. The pooled vector of a graph is the mean over its nodes, the node sum divided by the
  node count (the count a float word, kept as a word). Every sum is a plain sum over a finite index type on the
  extended reals; no order or grouping is left in it and no law beyond the definitions is used.
-/
import Idealize.ShloMosaic.PureOps.Ideal.Laws
import Idealize.ShloMosaic.Lib.ValueIdx

noncomputable section

open scoped BigOperators
open Idealize.ShloMosaic

namespace Gcn

/-- The float word zero, at the extended reals. -/
abbrev zeroW : EReal := Ideal.ofBits .f32 0x00000000#32

/-- The float word 1024.0, at the extended reals: the node count the mean divides by. -/
abbrev countW : EReal := Ideal.ofBits .f32 0x44800000#32

/-- One layer's output at node `n`, channel `h`. -/
def conv {N K H : ℕ} (x : Fin N → Fin K → EReal) (a : Fin N → Fin N → EReal) (w : Fin K → Fin H → EReal)
    (b : Fin H → EReal) (n : Fin N) (h : Fin H) : EReal :=
  max ((∑ m : Fin N, a n m * ∑ f : Fin K, x m f * w f h) + b h) zeroW

/-- The mean over the nodes of a layer's output, at channel `h`. -/
def pool {N H : ℕ} (y : Fin N → Fin H → EReal) (h : Fin H) : EReal :=
  Ideal.div (∑ n : Fin N, y n h) countW

/-- A layer's output depends on its operands only through their entries. -/
theorem conv_congr {N K H : ℕ} {x x' : Fin N → Fin K → EReal} {a a' : Fin N → Fin N → EReal}
    {w w' : Fin K → Fin H → EReal} {b b' : Fin H → EReal} (hx : ∀ m f, x m f = x' m f) (ha : ∀ n m, a n m = a' n m)
    (hw : ∀ f h, w f h = w' f h) (hb : ∀ h, b h = b' h) (n : Fin N) (h : Fin H) :
    conv x a w b n h = conv x' a' w' b' n h := by
  have ex : x = x' := funext fun m => funext fun f => hx m f
  have ea : a = a' := funext fun n => funext fun m => ha n m
  have ew : w = w' := funext fun f => funext fun h => hw f h
  have eb : b = b' := funext fun h => hb h
  rw [ex, ea, ew, eb]

/-! ## The same, on whole arrays

A batch of 64 graphs of 1024 nodes: features `X : 64 × 1024 × K`, adjacency `A : 64 × 1024 × 1024`, weights
`W : K × 256`, bias a function of the channel. Graph `g` of the batch is the slice at leading coordinate `g`. -/

open Idealize.ShloMosaic.ValueIdx

/-- The coordinates of a rank-3 index, each at its own literal extent. -/
abbrev c30 {n0 n1 n2 : ℕ} (i : (⟨3, ![n0, n1, n2]⟩ : Shape).Idx) : Fin n0 := ⟨(i 0).val, (i 0).isLt⟩
abbrev c31 {n0 n1 n2 : ℕ} (i : (⟨3, ![n0, n1, n2]⟩ : Shape).Idx) : Fin n1 := ⟨(i 1).val, (i 1).isLt⟩
abbrev c32 {n0 n1 n2 : ℕ} (i : (⟨3, ![n0, n1, n2]⟩ : Shape).Idx) : Fin n2 := ⟨(i 2).val, (i 2).isLt⟩
/-- The coordinates of a rank-2 index. -/
abbrev c20 {n0 n1 : ℕ} (i : (⟨2, ![n0, n1]⟩ : Shape).Idx) : Fin n0 := ⟨(i 0).val, (i 0).isLt⟩
abbrev c21 {n0 n1 : ℕ} (i : (⟨2, ![n0, n1]⟩ : Shape).Idx) : Fin n1 := ⟨(i 1).val, (i 1).isLt⟩

/-- One layer on the whole batch: entry `(g, n, h)` is the layer's output for graph `g` at node `n`, channel `h`. -/
def layerArr {K : ℕ} (X : (⟨3, ![64, 1024, K]⟩ : Shape).Idx → EReal) (A : (⟨3, ![64, 1024, 1024]⟩ : Shape).Idx → EReal)
    (W : (⟨2, ![K, 256]⟩ : Shape).Idx → EReal) (bias : Fin 256 → EReal) : (⟨3, ![64, 1024, 256]⟩ : Shape).Idx → EReal :=
  fun i => conv (fun m f => X (ix3 (c30 i) m f)) (fun n m => A (ix3 (c30 i) n m)) (fun f h => W (ix2 f h)) bias (c31 i) (c32 i)

/-- The pooled vectors of the whole batch: entry `(g, h)` is the mean over graph `g`'s nodes at channel `h`. -/
def poolArr (Y : (⟨3, ![64, 1024, 256]⟩ : Shape).Idx → EReal) : (⟨2, ![64, 256]⟩ : Shape).Idx → EReal :=
  fun i => pool (fun n h => Y (ix3 (c20 i) n h)) (c21 i)

theorem layerArr_apply {K : ℕ} (X : (⟨3, ![64, 1024, K]⟩ : Shape).Idx → EReal) (A : (⟨3, ![64, 1024, 1024]⟩ : Shape).Idx → EReal)
    (W : (⟨2, ![K, 256]⟩ : Shape).Idx → EReal) (bias : Fin 256 → EReal) (g : Fin 64) (n : Fin 1024) (h : Fin 256) :
    layerArr X A W bias (ix3 g n h)
      = conv (fun m f => X (ix3 g m f)) (fun n m => A (ix3 g n m)) (fun f h => W (ix2 f h)) bias n h := rfl

theorem poolArr_apply (Y : (⟨3, ![64, 1024, 256]⟩ : Shape).Idx → EReal) (g : Fin 64) (h : Fin 256) :
    poolArr Y (ix2 g h) = pool (fun n h => Y (ix3 g n h)) h := rfl

end Gcn

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.Layer1Body.lean ====
/-
  The first kernel's body at an entry.

  At one grid point the body holds one graph: its node features `x : 1 × 1024 × 128`, its adjacency matrix
  `a : 1 × 1024 × 1024`, the weights `w : 128 × 256` and the bias as one row `b : 1 × 256`. It drops the leading unit
  axis, multiplies features by weights, multiplies the adjacency matrix by that product, adds the bias row to every
  row, cuts off the negative part and puts the unit axis back. Changes of float format are the identity on the
  extended reals, and each matrix product into the zero matrix is the plain sum over the contracted axis; so the entry
  `(0, n, h)` of what is stored is the layer's formula at node `n`, channel `h`.
-/
import proofs.«135592_j81432579932318_1_alg».proof.Proof.Gen.KernelIdeal.Skeleton
import proofs.«135592_j81432579932318_1_alg».proof.Proof.GcnSpec
import proofs.«135592_j81432579932318_1_alg».proof.Proof.LibMatmul
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Bodies

open Cert.KernelIdeal Cert.KernelIdeal.Gen

/-- Features times weights: rows by columns, one contracted axis. -/
theorem plain_xw1 : PlainMatmul.IsPlain dot_S1024x128_S128x256_S1024x256_1_0_0_1_n_n := ⟨rfl, rfl, rfl, rfl, rfl, rfl⟩

/-- Adjacency times the projected features: the same plain product. -/
theorem plain_ah : PlainMatmul.IsPlain dot_S1024x1024_S1024x256_S1024x256_1_0_0_1_n_n := ⟨rfl, rfl, rfl, rfl, rfl, rfl⟩

/-- The stored block of the first kernel at `(0, n, h)` is the layer's output at node `n`, channel `h`, of the
    graph the point holds. -/
theorem layer1_apply (x0 : FVec Ideal S1x1024x128 .f32) (w : FVec Ideal S128x256 .f32) (a : FVec Ideal S1x1024x1024 .f32)
    (b : FVec Ideal S1x256 .f32) (n : Fin 1024) (h : Fin 256) :
    k0_pay1 (F := Ideal) x0 w a b (ix3 (0 : Fin 1) n h)
      = Gcn.conv (fun m f => x0 (ix3 (0 : Fin 1) m f)) (fun n m => a (ix3 (0 : Fin 1) n m)) (fun f h => w (ix2 f h))
          (fun h => b (ix2 (0 : Fin 1) h)) n h := by
  unfold k0_pay1 Gcn.conv
  dsimp only
  refine (shapeCast_ab_1ab_apply _ _ 0 n h).trans ?_
  simp only [truncf_apply, maximumf_apply, addf_apply, broadcast_apply]
  refine congrArg₂ max (congrArg₂ (· + ·) ?_ ?_) rfl
  · refine (PlainMatmul.apply plain_ah none _ _ n h).trans ?_
    refine Finset.sum_congr rfl fun m _ => ?_
    refine congrArg₂ (· * ·) (shapeCast_1ab_ab_apply a _ n m) ?_
    refine (PlainMatmul.apply plain_xw1 none _ _ m h).trans ?_
    refine Finset.sum_congr rfl fun f _ => ?_
    exact congrArg₂ (· * ·) (shapeCast_1ab_ab_apply x0 _ m f) rfl
  · refine (broadcastTo_1b_ab_apply _ _ n h).trans ?_
    rw [shapeCast_self]

end Cert.KernelIdeal.Bodies

end
-- ==== Proof.Region0.lean ====
/-
  The first pallas_call's output array after its run.

  The call's grid has one point per graph of the batch. Point `t` fetches graph `t`'s features and adjacency matrix
  (blocks `(t, 0, 0)` of their arrays), the whole weight matrix and the whole bias row, and writes back block
  `(t, 0, 0)` of the output: one graph's 1024 × 256 layer output. What it writes is the layer's formula of what it
  fetched, and what it fetched are the rows of the arrays that belong to graph `t`; so the block is the restriction
  to graph `t` of ONE function of the whole arrays, the layer applied to the whole batch. The 64 blocks tile the
  output array, so after the run the array holds that function everywhere.

  The arrays are read as the region finds them (`V`), whatever wrote them.
-/
import proofs.«135592_j81432579932318_1_alg».proof.Proof.Gen.KernelIdeal.Frame
import proofs.«135592_j81432579932318_1_alg».proof.Proof.Layer1Body
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.KernelIdeal.Bodies

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the three batched windows sit at block `(t, 0, 0)`, the weights and the
    bias row at block `(0, 0)`. -/
theorem idx : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- What the output array ends holding: the first layer of the whole batch, of the arrays as the region finds them. -/
abbrev out (c : Dev nD) : S64x1024x256.Idx → EReal :=
  Gcn.layerArr (K := 128) (V c main_arg0) (V c main_arg1) (V c main_arg2)
    (fun h => (V c main_v0 : S1x256.Idx → EReal) (ix2 (0 : Fin 1) h))

/-- The features' block at point `t` is graph `t`'s slice of the features. -/
theorem feat_apply (c : Dev nD) (t : Fin cfg0.N) (g : Fin 64) (hg : g.val = t.val) (m : Fin 1024) (f : Fin 128) :
    (iblk0 V c 0 t : FVec Ideal S1x1024x128 .f32) (ix3 (0 : Fin 1) m f) = (V c main_arg0 : S64x1024x128.Idx → EReal) (ix3 g m f) := by
  obtain ⟨e0, e1, e2, -⟩ := idx t
  unfold iblk0
  rw [View.read_apply]
  show (V c main_arg0 : S64x1024x128.Idx → EReal) _ = _
  refine congrArg _ ?_
  funext a; apply Fin.ext
  match a with
  | ⟨0, _⟩ => show win0_0.index t (0 : Fin 3) * 1 + 1 * 0 = g.val; omega
  | ⟨1, _⟩ => show win0_0.index t (1 : Fin 3) * 1024 + 1 * m.val = m.val; omega
  | ⟨2, _⟩ => show win0_0.index t (2 : Fin 3) * 128 + 1 * f.val = f.val; omega

/-- The adjacency block at point `t` is graph `t`'s adjacency matrix. -/
theorem adj_apply (c : Dev nD) (t : Fin cfg0.N) (g : Fin 64) (hg : g.val = t.val) (n m : Fin 1024) :
    (iblk0 V c 1 t : FVec Ideal S1x1024x1024 .f32) (ix3 (0 : Fin 1) n m) = (V c main_arg1 : S64x1024x1024.Idx → EReal) (ix3 g n m) := by
  obtain ⟨-, -, -, e0, e1, e2, -⟩ := idx t
  unfold iblk0
  rw [View.read_apply]
  show (V c main_arg1 : S64x1024x1024.Idx → EReal) _ = _
  refine congrArg _ ?_
  funext a; apply Fin.ext
  match a with
  | ⟨0, _⟩ => show win0_1.index t (0 : Fin 3) * 1 + 1 * 0 = g.val; omega
  | ⟨1, _⟩ => show win0_1.index t (1 : Fin 3) * 1024 + 1 * n.val = n.val; omega
  | ⟨2, _⟩ => show win0_1.index t (2 : Fin 3) * 1024 + 1 * m.val = m.val; omega

/-- The weights' block at any point is the whole weight matrix. -/
theorem wts_apply (c : Dev nD) (t : Fin cfg0.N) (f : Fin 128) (h : Fin 256) :
    (iblk0 V c 2 t : FVec Ideal S128x256 .f32) (ix2 f h) = (V c main_arg2 : S128x256.Idx → EReal) (ix2 f h) := by
  obtain ⟨-, -, -, -, -, -, e0, e1, -⟩ := idx t
  unfold iblk0
  rw [View.read_apply]
  show (V c main_arg2 : S128x256.Idx → EReal) _ = _
  refine congrArg _ ?_
  funext a; apply Fin.ext
  match a with
  | ⟨0, _⟩ => show win0_2.index t (0 : Fin 2) * 128 + 1 * f.val = f.val; omega
  | ⟨1, _⟩ => show win0_2.index t (1 : Fin 2) * 256 + 1 * h.val = h.val; omega

/-- The bias block at any point is the whole bias row. -/
theorem bias_apply (c : Dev nD) (t : Fin cfg0.N) (h : Fin 256) :
    (iblk0 V c 3 t : FVec Ideal S1x256 .f32) (ix2 (0 : Fin 1) h) = (V c main_v0 : S1x256.Idx → EReal) (ix2 (0 : Fin 1) h) := by
  obtain ⟨-, -, -, -, -, -, -, -, e0, e1, -⟩ := idx t
  unfold iblk0
  rw [View.read_apply]
  show (V c main_v0 : S1x256.Idx → EReal) _ = _
  refine congrArg _ ?_
  funext a; apply Fin.ext
  match a with
  | ⟨0, _⟩ => show win0_3.index t (0 : Fin 2) * 1 + 1 * 0 = 0; omega
  | ⟨1, _⟩ => show win0_3.index t (1 : Fin 2) * 256 + 1 * h.val = h.val; omega

/-- What point `t` writes back is block `t` of the first layer of the whole batch. -/
theorem flushed_eq (c : Dev nD) (t : Fin cfg0.N) :
    (dat0 V c).flushed 4 t = ((cfg0.win 4).blk t).view.read (Elt Ideal) (out V c) := by
  show (cfg0.win 4).cut (grid0.coords t) ((dat0 V c).after 4 t) = _
  rw [after0_4]
  unfold out0_4
  rw [View.canon_unit_zero hz3]
  simp only [View.ld_unit_zero (S := S1x1024x128) hz3, View.ld_unit_zero (S := S128x256) hz2,
    View.ld_unit_zero (S := S1x1024x1024) hz3, View.ld_unit_zero (S := S1x256) hz2]
  have ht : t.val < 64 := by have h := t.isLt; have e : cfg0.N = 64 := N_0; omega
  obtain ⟨-, -, -, -, -, -, -, -, -, -, e0, e1, e2⟩ := idx t
  funext j
  obtain ⟨u, n, h, rfl⟩ : ∃ (u : Fin 1) (n : Fin 1024) (h : Fin 256), j = ix3 u n h := ⟨j 0, j 1, j 2, eq_ix3 j⟩
  obtain rfl : u = 0 := Fin.eq_zero u
  rw [View.read_apply]
  have he : ((cfg0.win 4).blk t).view.emb (ix3 (0 : Fin 1) n h) = (ix3 (⟨t.val, ht⟩ : Fin 64) n h : S64x1024x256.Idx) := by
    funext a; apply Fin.ext
    match a with
    | ⟨0, _⟩ => show win0_4.index t (0 : Fin 3) * 1 + 1 * 0 = t.val; omega
    | ⟨1, _⟩ => show win0_4.index t (1 : Fin 3) * 1024 + 1 * n.val = n.val; omega
    | ⟨2, _⟩ => show win0_4.index t (2 : Fin 3) * 256 + 1 * h.val = h.val; omega
  rw [he]
  show k0_pay1 (F := Ideal) _ _ _ _ (ix3 (0 : Fin 1) n h) = _
  refine (layer1_apply _ _ _ _ n h).trans ?_
  show Gcn.conv _ _ _ _ n h = out V c (ix3 (⟨t.val, ht⟩ : Fin 64) n h)
  unfold out
  rw [Gcn.layerArr_apply]
  exact Gcn.conv_congr (fun m f => feat_apply V c t _ rfl m f) (fun n m => adj_apply V c t _ rfl n m)
    (fun f h => wts_apply V c t f h) (fun h => bias_apply V c t h) n h

/-- An index of the output array is in point `t`'s block iff each coordinate is in the block's range on its axis. -/
theorem mem_blk (t : Fin cfg0.N) (i : S64x1024x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v2).slice (win0_4.rect t)).set ↔ _
  rw [View.set_slice_whole, Rect.mem_set_unit]
  exact Iff.rfl

/-- Every index of the output array is in the block of the point that holds its graph. -/
theorem cover (i : S64x1024x256.Idx) : ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 256 := (i 2).isLt
  refine ⟨⟨(i 0).val, by rw [show cfg0.N = 64 from N_0]; exact hi0⟩, flush0_4 _, ?_⟩
  rw [mem_blk]
  obtain ⟨-, -, -, -, -, -, -, -, -, -, e0, e1, e2⟩ := idx ⟨(i 0).val, by rw [show cfg0.N = 64 from N_0]; exact hi0⟩
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 1024 ≤ (i 1).val ∧ (i 1).val < win0_4.index _ (1 : Fin 3) * 1024 + 1024; rw [e1]; omega
  | ⟨2, _⟩ => show win0_4.index _ (2 : Fin 3) * 256 ≤ (i 2).val ∧ (i 2).val < win0_4.index _ (2 : Fin 3) * 256 + 256; rw [e2]; omega

/-- The output array after the run: the first layer of the whole batch. -/
theorem final (c : Dev nD) : (dat0 V c).arrAt 4 cfg0.N = out V c :=
  (dat0 V c).arrAt_eq_of_cover 4 (out V c) (fun t _ => flushed_eq V c t) cover

end Cert.KernelIdeal.Region0

end
-- ==== Proof.LibColumnSum.lean ====
/-
  The sum down the rows of a block, one lane at a time.

  Program-free (the library only). Over the extended reals a `vector.multi_reduction <add>` of an `[R, C]` block
  along its row axis (`jnp.sum(…, axis=0)`), accumulated from the zero word, has at lane `q` the plain sum
  `∑ n, y (n, q)` over the block's rows: no order or grouping is left in it.
-/
import Idealize.ShloMosaic.PureOps.Ideal.Laws
import Idealize.ShloMosaic.Lib.ValueIdx

noncomputable section

open scoped BigOperators

namespace ColumnSum

open Idealize.ShloMosaic Idealize.ShloMosaic.ValueIdx

/-- The sums down the rows of an `[R, C]` block, as a vector `[C]`: entry `q` is the sum of column `q`. -/
theorem rowsSum_apply {R C : ℕ} (y : FVec Ideal ⟨2, ![R, C]⟩ .f32)
    (h0 : (⟨2, ![R, C]⟩ : Shape).Reduces [0] ⟨1, ![C]⟩) (hφ : FKind.Formats .f32)
    (hacc : (0x00000000#32 : BitVec 32) = FKind.add.neutral .f32 hφ) (q : Fin C) :
    multiReduction .add [0] ⟨1, ![C]⟩ y 0x00000000#32 h0 hφ hacc (ix1 q) = ∑ n : Fin R, y (ix2 n q) := by
  refine (Ideal.multiReduction_add_single y _ h0 hφ hacc (ix1 q)).trans ?_
  refine Finset.sum_congr rfl fun n _ => congrArg y ?_
  funext a
  match a with
  | ⟨0, _⟩ => exact Fin.ext rfl
  | ⟨1, _⟩ => exact Fin.ext rfl

end ColumnSum

end
-- ==== Proof.Layer2Body.lean ====
/-
  The second kernel's body at an entry.

  At one grid point the body holds one graph: the first layer's output `y : 1 × 1024 × 256` (already in the narrow
  float format, which is the identity on the extended reals), the adjacency matrix `a : 1 × 1024 × 1024`, the weights
  `w : 256 × 256` and the bias row `b : 1 × 256`. It computes the second layer exactly as the first kernel computes
  the first, then sums the result down its 1024 rows, divides each of the 256 sums by the node count and stores the
  quotients as a `1 × 1 × 256` block. So the entry `(0, 0, q)` of what is stored is the mean over the nodes of the
  second layer's output at channel `q`.
-/
import proofs.«135592_j81432579932318_1_alg».proof.Proof.Gen.KernelIdeal.Skeleton
import proofs.«135592_j81432579932318_1_alg».proof.Proof.GcnSpec
import proofs.«135592_j81432579932318_1_alg».proof.Proof.LibMatmul
import proofs.«135592_j81432579932318_1_alg».proof.Proof.LibColumnSum
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Bodies2

open Cert.KernelIdeal Cert.KernelIdeal.Gen

/-- First-layer output times weights: rows by columns, one contracted axis. -/
theorem plain_xw2 : PlainMatmul.IsPlain dot_S1024x256_S256x256_S1024x256_1_0_0_1_n_n := ⟨rfl, rfl, rfl, rfl, rfl, rfl⟩

/-- Adjacency times the projected features: the same plain product. -/
theorem plain_ah2 : PlainMatmul.IsPlain dot_S1024x1024_S1024x256_S1024x256_1_0_0_1_n_n := ⟨rfl, rfl, rfl, rfl, rfl, rfl⟩

/-- The stored block of the second kernel at `(0, 0, q)` is the mean over the nodes of the second layer's output at
    channel `q`, of the graph the point holds. -/
theorem pooled_apply (y : FVec Ideal S1x1024x256 .bf16) (w : FVec Ideal S256x256 .f32) (a : FVec Ideal S1x1024x1024 .f32)
    (b : FVec Ideal S1x256 .f32) (q : Fin 256) :
    k1_pay1 (F := Ideal) y w a b (ix3 (0 : Fin 1) (0 : Fin 1) q)
      = Gcn.pool (Gcn.conv (fun m f => y (ix3 (0 : Fin 1) m f)) (fun n m => a (ix3 (0 : Fin 1) n m)) (fun f h => w (ix2 f h))
          (fun h => b (ix2 (0 : Fin 1) h))) q := by
  unfold k1_pay1 Gcn.pool
  dsimp only
  refine (shapeCast_ab_1ab_apply _ _ 0 0 q).trans ?_
  simp only [divf_apply, broadcast_apply]
  refine congrArg₂ Ideal.div ?_ rfl
  refine (shapeCast_a_1a_apply _ _ 0 q).trans ?_
  refine (ColumnSum.rowsSum_apply _ _ _ _ q).trans ?_
  refine Finset.sum_congr rfl fun n _ => ?_
  unfold Gcn.conv
  simp only [truncf_apply, maximumf_apply, addf_apply, broadcast_apply]
  refine congrArg₂ max (congrArg₂ (· + ·) ?_ ?_) rfl
  · refine (PlainMatmul.apply plain_ah2 none _ _ n q).trans ?_
    refine Finset.sum_congr rfl fun m _ => ?_
    refine congrArg₂ (· * ·) (shapeCast_1ab_ab_apply a _ n m) ?_
    refine (PlainMatmul.apply plain_xw2 none _ _ m q).trans ?_
    refine Finset.sum_congr rfl fun f _ => ?_
    exact congrArg₂ (· * ·) (shapeCast_1ab_ab_apply y _ m f) rfl
  · refine (broadcastTo_1b_ab_apply _ _ n q).trans ?_
    rw [shapeCast_self]

end Cert.KernelIdeal.Bodies2

end
-- ==== Proof.Region1.lean ====
/-
  The second pallas_call's output array after its run.

  Again one grid point per graph. Point `t` fetches graph `t`'s first-layer output and adjacency matrix (blocks
  `(t, 0, 0)`), the whole second weight matrix and the whole second bias row, and writes back block `(t, 0, 0)` of
  the output, a `1 × 1 × 256` block: graph `t`'s pooled vector. What it writes is the mean over the nodes of the
  second layer of what it fetched; so the block is the restriction to graph `t` of ONE function of the whole arrays,
  the pooled second layer of the whole batch. The 64 blocks tile the `64 × 1 × 256` output array.

  The arrays are read as the region finds them (`V`), whatever wrote them.
-/
import proofs.«135592_j81432579932318_1_alg».proof.Proof.Gen.KernelIdeal.Frame
import proofs.«135592_j81432579932318_1_alg».proof.Proof.Layer2Body
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.KernelIdeal.Bodies2

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the three batched windows sit at block `(t, 0, 0)`, the weights and the
    bias row at block `(0, 0)`. -/
theorem idx : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The second layer of the whole batch, of the arrays as the region finds them. -/
abbrev layer (c : Dev nD) : S64x1024x256.Idx → EReal :=
  Gcn.layerArr (K := 256) (V c main_v2 : S64x1024x256.Idx → EReal) (V c main_arg1) (V c main_arg4)
    (fun h => (V c main_v1 : S1x256.Idx → EReal) (ix2 (0 : Fin 1) h))

/-- What the output array ends holding: at `(g, 0, q)` the pooled second layer of graph `g` at channel `q`. -/
abbrev out (c : Dev nD) : S64x1x256.Idx → EReal :=
  fun i => Gcn.poolArr (layer V c) (ix2 (Gcn.c30 i) (Gcn.c32 i))

/-- The first-layer block at point `t` is graph `t`'s slice of the first layer's output. -/
theorem feat_apply (c : Dev nD) (t : Fin cfg1.N) (g : Fin 64) (hg : g.val = t.val) (m : Fin 1024) (f : Fin 256) :
    (iblk1 V c 0 t : FVec Ideal S1x1024x256 .bf16) (ix3 (0 : Fin 1) m f) = (V c main_v2 : S64x1024x256.Idx → EReal) (ix3 g m f) := by
  obtain ⟨e0, e1, e2, -⟩ := idx t
  unfold iblk1
  rw [View.read_apply]
  show (V c main_v2 : S64x1024x256.Idx → EReal) _ = _
  refine congrArg _ ?_
  funext a; apply Fin.ext
  match a with
  | ⟨0, _⟩ => show win1_0.index t (0 : Fin 3) * 1 + 1 * 0 = g.val; omega
  | ⟨1, _⟩ => show win1_0.index t (1 : Fin 3) * 1024 + 1 * m.val = m.val; omega
  | ⟨2, _⟩ => show win1_0.index t (2 : Fin 3) * 256 + 1 * f.val = f.val; omega

/-- The adjacency block at point `t` is graph `t`'s adjacency matrix. -/
theorem adj_apply (c : Dev nD) (t : Fin cfg1.N) (g : Fin 64) (hg : g.val = t.val) (n m : Fin 1024) :
    (iblk1 V c 1 t : FVec Ideal S1x1024x1024 .f32) (ix3 (0 : Fin 1) n m) = (V c main_arg1 : S64x1024x1024.Idx → EReal) (ix3 g n m) := by
  obtain ⟨-, -, -, e0, e1, e2, -⟩ := idx t
  unfold iblk1
  rw [View.read_apply]
  show (V c main_arg1 : S64x1024x1024.Idx → EReal) _ = _
  refine congrArg _ ?_
  funext a; apply Fin.ext
  match a with
  | ⟨0, _⟩ => show win1_1.index t (0 : Fin 3) * 1 + 1 * 0 = g.val; omega
  | ⟨1, _⟩ => show win1_1.index t (1 : Fin 3) * 1024 + 1 * n.val = n.val; omega
  | ⟨2, _⟩ => show win1_1.index t (2 : Fin 3) * 1024 + 1 * m.val = m.val; omega

/-- The weights' block at any point is the whole weight matrix. -/
theorem wts_apply (c : Dev nD) (t : Fin cfg1.N) (f : Fin 256) (h : Fin 256) :
    (iblk1 V c 2 t : FVec Ideal S256x256 .f32) (ix2 f h) = (V c main_arg4 : S256x256.Idx → EReal) (ix2 f h) := by
  obtain ⟨-, -, -, -, -, -, e0, e1, -⟩ := idx t
  unfold iblk1
  rw [View.read_apply]
  show (V c main_arg4 : S256x256.Idx → EReal) _ = _
  refine congrArg _ ?_
  funext a; apply Fin.ext
  match a with
  | ⟨0, _⟩ => show win1_2.index t (0 : Fin 2) * 256 + 1 * f.val = f.val; omega
  | ⟨1, _⟩ => show win1_2.index t (1 : Fin 2) * 256 + 1 * h.val = h.val; omega

/-- The bias block at any point is the whole bias row. -/
theorem bias_apply (c : Dev nD) (t : Fin cfg1.N) (h : Fin 256) :
    (iblk1 V c 3 t : FVec Ideal S1x256 .f32) (ix2 (0 : Fin 1) h) = (V c main_v1 : S1x256.Idx → EReal) (ix2 (0 : Fin 1) h) := by
  obtain ⟨-, -, -, -, -, -, -, -, e0, e1, -⟩ := idx t
  unfold iblk1
  rw [View.read_apply]
  show (V c main_v1 : S1x256.Idx → EReal) _ = _
  refine congrArg _ ?_
  funext a; apply Fin.ext
  match a with
  | ⟨0, _⟩ => show win1_3.index t (0 : Fin 2) * 1 + 1 * 0 = 0; omega
  | ⟨1, _⟩ => show win1_3.index t (1 : Fin 2) * 256 + 1 * h.val = h.val; omega

/-- What point `t` writes back is block `t` of the pooled second layer of the whole batch. -/
theorem flushed_eq (c : Dev nD) (t : Fin cfg1.N) :
    (dat1 V c).flushed 4 t = ((cfg1.win 4).blk t).view.read (Elt Ideal) (out V c) := by
  show (cfg1.win 4).cut (grid1.coords t) ((dat1 V c).after 4 t) = _
  rw [after1_4]
  unfold out1_4
  rw [View.canon_unit_zero hz3]
  simp only [View.ld_unit_zero (S := S1x1024x256) hz3, View.ld_unit_zero (S := S256x256) hz2,
    View.ld_unit_zero (S := S1x1024x1024) hz3, View.ld_unit_zero (S := S1x256) hz2]
  have ht : t.val < 64 := by have h := t.isLt; have e : cfg1.N = 64 := N_1; omega
  obtain ⟨-, -, -, -, -, -, -, -, -, -, e0, e1, e2⟩ := idx t
  funext j
  obtain ⟨u, u', q, rfl⟩ : ∃ (u : Fin 1) (u' : Fin 1) (q : Fin 256), j = ix3 u u' q := ⟨j 0, j 1, j 2, eq_ix3 j⟩
  obtain rfl : u = 0 := Fin.eq_zero u
  obtain rfl : u' = 0 := Fin.eq_zero u'
  rw [View.read_apply]
  have he : ((cfg1.win 4).blk t).view.emb (ix3 (0 : Fin 1) (0 : Fin 1) q) = (ix3 (⟨t.val, ht⟩ : Fin 64) (0 : Fin 1) q : S64x1x256.Idx) := by
    funext a; apply Fin.ext
    match a with
    | ⟨0, _⟩ => show win1_4.index t (0 : Fin 3) * 1 + 1 * 0 = t.val; omega
    | ⟨1, _⟩ => show win1_4.index t (1 : Fin 3) * 1 + 1 * 0 = 0; omega
    | ⟨2, _⟩ => show win1_4.index t (2 : Fin 3) * 256 + 1 * q.val = q.val; omega
  rw [he]
  show k1_pay1 (F := Ideal) _ _ _ _ (ix3 (0 : Fin 1) (0 : Fin 1) q) = _
  refine (pooled_apply _ _ _ _ q).trans ?_
  show Gcn.pool _ q = Gcn.pool (fun n h => layer V c (ix3 (⟨t.val, ht⟩ : Fin 64) n h)) q
  unfold Gcn.pool
  refine congrArg₂ Ideal.div (Finset.sum_congr rfl fun n _ => ?_) rfl
  show Gcn.conv _ _ _ _ n q = layer V c (ix3 (⟨t.val, ht⟩ : Fin 64) n q)
  unfold layer
  rw [Gcn.layerArr_apply]
  exact Gcn.conv_congr (fun m f => feat_apply V c t _ rfl m f) (fun n m => adj_apply V c t _ rfl n m)
    (fun f h => wts_apply V c t f h) (fun h => bias_apply V c t h) n q

/-- An index of the output array is in point `t`'s block iff each coordinate is in the block's range on its axis. -/
theorem mem_blk (t : Fin cfg1.N) (i : S64x1x256.Idx) :
    i ∈ ((cfg1.win 4).blk t).view.set ↔ ∀ a : Fin 3, win1_4.index t a * S1x1x256.size a ≤ (i a).val ∧ (i a).val < win1_4.index t a * S1x1x256.size a + S1x1x256.size a := by
  show i ∈ ((View.whole main_v3).slice (win1_4.rect t)).set ↔ _
  rw [View.set_slice_whole, Rect.mem_set_unit]
  exact Iff.rfl

/-- Every index of the output array is in the block of the point that holds its graph. -/
theorem cover (i : S64x1x256.Idx) : ∃ t : Fin cfg1.N, (cfg1.win 4).flush t = true ∧ i ∈ ((cfg1.win 4).blk t).view.set := by
  have hi0 : (i 0).val < 64 := (i 0).isLt
  have hi1 : (i 1).val < 1 := (i 1).isLt
  have hi2 : (i 2).val < 256 := (i 2).isLt
  refine ⟨⟨(i 0).val, by rw [show cfg1.N = 64 from N_1]; exact hi0⟩, flush1_4 _, ?_⟩
  rw [mem_blk]
  obtain ⟨-, -, -, -, -, -, -, -, -, -, e0, e1, e2⟩ := idx ⟨(i 0).val, by rw [show cfg1.N = 64 from N_1]; exact hi0⟩
  intro a
  match a with
  | ⟨0, _⟩ => show win1_4.index _ (0 : Fin 3) * 1 ≤ (i 0).val ∧ (i 0).val < win1_4.index _ (0 : Fin 3) * 1 + 1; rw [e0]; show (i 0).val * 1 ≤ (i 0).val ∧ (i 0).val < (i 0).val * 1 + 1; omega
  | ⟨1, _⟩ => show win1_4.index _ (1 : Fin 3) * 1 ≤ (i 1).val ∧ (i 1).val < win1_4.index _ (1 : Fin 3) * 1 + 1; rw [e1]; omega
  | ⟨2, _⟩ => show win1_4.index _ (2 : Fin 3) * 256 ≤ (i 2).val ∧ (i 2).val < win1_4.index _ (2 : Fin 3) * 256 + 256; rw [e2]; omega

/-- The output array after the run: the pooled second layer of the whole batch. -/
theorem final (c : Dev nD) : (dat1 V c).arrAt 4 cfg1.N = out V c :=
  (dat1 V c).arrAt_eq_of_cover 4 (out V c) (fun t _ => flushed_eq V c t) cover

end Cert.KernelIdeal.Region1

end
-- ==== Proof.KernelValue.lean ====
/-
  The idealized kernel's result as one function of its arguments.

  Folding the program's four segments over the launch memory: the two host reshapes make each bias vector a row,
  entry `(0, h)` of the row being entry `h` of the vector; the first pallas_call leaves in its output array the first
  layer of the whole batch (of the features, the adjacency matrices, the first weights and the first bias row); the
  second leaves the pooled second layer (of that array, the adjacency matrices again, the second weights and the
  second bias row) as a `64 × 1 × 256` array; the host tail flattens it to `64 × 256` — entry `(g, q)` is entry
  `(g, 0, q)` — and applies three dense layers. No segment writes an argument. So the result buffer ends at the dense
  tail of the pooled second layer of the first layer of the arguments.
-/
import proofs.«135592_j81432579932318_1_alg».proof.Proof.Region0
import proofs.«135592_j81432579932318_1_alg».proof.Proof.Region1
import Idealize.ShloMosaic.Lib.StableHlo.Run
import Idealize.ShloMosaic.Lib.ValueLayout

set_option maxRecDepth 16384

noncomputable section

open scoped BigOperators
open Idealize.ShloMosaic Idealize.ShloMosaic.TcCoe Idealize.ShloMosaic.ValueIdx Idealize.SL.Sem Idealize.ShloMosaic.StableHlo

namespace Cert.KernelIdeal.Whole

open Cert.KernelIdeal Cert.KernelIdeal.Gen

/-- The three dense layers after the pooling, as one function of the pooled vectors and the six dense arguments. -/
def tail (P : FVec Ideal S64x256 .f32) (a6 : FVec Ideal S256x256 .f32) (a7 : FVec Ideal S256 .f32) (a8 : FVec Ideal S256x256 .f32)
    (a9 : FVec Ideal S256 .f32) (a10 : FVec Ideal S256x1 .f32) (a11 : FVec Ideal S1 .f32) : FVec Ideal S64x1 .f32 :=
  addf
    (Host.dotGeneral (F := Ideal) dot_S64x256_S256x1_S64x1_1_0_0_1_n_n none
      (addf
        (Host.dotGeneral (F := Ideal) dot_S64x256_S256x256_S64x256_1_0_0_1_n_n none
          (addf
            (Host.dotGeneral (F := Ideal) dot_S64x256_S256x256_S64x256_1_0_0_1_n_n none P a6)
            (broadcastInDim S64x256 ![0, 1] bcast_S1x256_S64x256_0_1 (broadcastInDim S1x256 ![1] bcast_S256_S1x256_1 a7)))
          a8)
        (broadcastInDim S64x256 ![0, 1] bcast_S1x256_S64x256_0_1 (broadcastInDim S1x256 ![1] bcast_S256_S1x256_1 a9)))
      a10)
    (broadcastInDim S64x1 ![0, 1] bcast_S1x1_S64x1_0_1 (broadcastInDim S1x1 ![1] bcast_S1_S1x1_1 a11))

variable (m : (ℓ : Loc nD τ sig) → Buf (Elt Ideal) ℓ) (ρ : Dev nD → PrngReg)

/-! ## After the two host reshapes -/

theorem V1_arg0 (c : Dev nD) : V1 m ρ c main_arg0 = m ((c : Thread nD τ).loc main_arg0) := by
  show StableHlo.after hostOps0 (W0 m ρ c) (Proc.devRef .tc main_arg0) = _; after_results
theorem V1_arg1 (c : Dev nD) : V1 m ρ c main_arg1 = m ((c : Thread nD τ).loc main_arg1) := by
  show StableHlo.after hostOps0 (W0 m ρ c) (Proc.devRef .tc main_arg1) = _; after_results
theorem V1_arg2 (c : Dev nD) : V1 m ρ c main_arg2 = m ((c : Thread nD τ).loc main_arg2) := by
  show StableHlo.after hostOps0 (W0 m ρ c) (Proc.devRef .tc main_arg2) = _; after_results
theorem V1_arg4 (c : Dev nD) : V1 m ρ c main_arg4 = m ((c : Thread nD τ).loc main_arg4) := by
  show StableHlo.after hostOps0 (W0 m ρ c) (Proc.devRef .tc main_arg4) = _; after_results

/-- The first bias row: entry `(0, h)` is entry `h` of the first bias vector. -/
theorem V1_bias1 (c : Dev nD) (h : Fin 256) :
    (V1 m ρ c main_v0 : S1x256.Idx → EReal) (ix2 (0 : Fin 1) h) = (m ((c : Thread nD τ).loc main_arg3) : S256.Idx → EReal) (ix1 h) := by
  have e : V1 m ρ c main_v0 = shapeCast S1x256 (m ((c : Thread nD τ).loc main_arg3) : S256.Idx → EReal) shapeCasts_S256_S1x256 := by
    show StableHlo.after hostOps0 (W0 m ρ c) (Proc.devRef .tc main_v0) = _; after_results; rfl
  rw [e]
  exact shapeCast_a_1a_apply _ _ 0 h

/-- The second bias row: entry `(0, h)` is entry `h` of the second bias vector. -/
theorem V1_bias2 (c : Dev nD) (h : Fin 256) :
    (V1 m ρ c main_v1 : S1x256.Idx → EReal) (ix2 (0 : Fin 1) h) = (m ((c : Thread nD τ).loc main_arg5) : S256.Idx → EReal) (ix1 h) := by
  have e : V1 m ρ c main_v1 = shapeCast S1x256 (m ((c : Thread nD τ).loc main_arg5) : S256.Idx → EReal) shapeCasts_S256_S1x256 := by
    show StableHlo.after hostOps0 (W0 m ρ c) (Proc.devRef .tc main_v1) = _; after_results; rfl
  rw [e]
  exact shapeCast_a_1a_apply _ _ 0 h

/-! ## After the first pallas_call -/

/-- The first layer of the whole batch, of the arguments. -/
abbrev layer1 (c : Dev nD) : S64x1024x256.Idx → EReal :=
  Gcn.layerArr (K := 128) (m ((c : Thread nD τ).loc main_arg0)) (m ((c : Thread nD τ).loc main_arg1))
    (m ((c : Thread nD τ).loc main_arg2)) (fun h => (m ((c : Thread nD τ).loc main_arg3) : S256.Idx → EReal) (ix1 h))

/-- The first call's output array holds the first layer. -/
theorem V2_layer1 (c : Dev nD) : (V2 m ρ c main_v2 : S64x1024x256.Idx → EReal) = layer1 m c := by
  refine (W2_arr m ρ c 4).trans ?_
  rw [Region0.final]
  unfold Region0.out layer1
  rw [V1_arg0, V1_arg1, V1_arg2]
  exact congrArg (Gcn.layerArr (K := 128) _ _ _) (funext fun h => V1_bias1 m ρ c h)

/-- The adjacency matrices, an input of the first call, are as launched after it. -/
theorem V2_arg1 (c : Dev nD) : V2 m ρ c main_arg1 = m ((c : Thread nD τ).loc main_arg1) :=
  ((W2_arr m ρ c 1).trans (((dat0 (V1 m ρ) c).arrAt_in 1 rfl _).trans (A_eq0 (V1 m ρ) c 1))).trans (V1_arg1 m ρ c)

/-- The second weights, which the first call does not touch, are as launched after it. -/
theorem V2_arg4 (c : Dev nD) : V2 m ρ c main_arg4 = m ((c : Thread nD τ).loc main_arg4) :=
  (W2_of_ne m ρ c main_arg4 (by decide)).trans (V1_arg4 m ρ c)

/-- The second bias row, which the first call does not touch. -/
theorem V2_bias2 (c : Dev nD) (h : Fin 256) :
    (V2 m ρ c main_v1 : S1x256.Idx → EReal) (ix2 (0 : Fin 1) h) = (m ((c : Thread nD τ).loc main_arg5) : S256.Idx → EReal) (ix1 h) := by
  rw [show V2 m ρ c main_v1 = V1 m ρ c main_v1 from W2_of_ne m ρ c main_v1 (by decide)]
  exact V1_bias2 m ρ c h

/-! ## After the second pallas_call -/

/-- The second layer of the whole batch, of the first layer and the arguments. -/
abbrev layer2 (c : Dev nD) : S64x1024x256.Idx → EReal :=
  Gcn.layerArr (K := 256) (layer1 m c) (m ((c : Thread nD τ).loc main_arg1)) (m ((c : Thread nD τ).loc main_arg4))
    (fun h => (m ((c : Thread nD τ).loc main_arg5) : S256.Idx → EReal) (ix1 h))

/-- What the second call reads is the first layer, the adjacency matrices, the second weights and the second bias. -/
theorem region1_layer (c : Dev nD) : Region1.layer (V2 m ρ) c = layer2 m c := by
  unfold Region1.layer layer2
  rw [V2_layer1, V2_arg1, V2_arg4]
  exact congrArg (Gcn.layerArr (K := 256) _ _ _) (funext fun h => V2_bias2 m ρ c h)

/-- The second call's output array, flattened: entry `(g, q)` is entry `(g, 0, q)`, graph `g`'s pooled value. -/
theorem flat_pooled (c : Dev nD) :
    shapeCast S64x256 (V3 m ρ c main_v3 : S64x1x256.Idx → EReal) shapeCasts_S64x1x256_S64x256 = Gcn.poolArr (layer2 m c) := by
  have e3 : (V3 m ρ c main_v3 : S64x1x256.Idx → EReal) = Region1.out (V2 m ρ) c :=
    (W3_arr m ρ c 4).trans (Region1.final (V2 m ρ) c)
  rw [e3]
  funext i
  obtain ⟨g, q, rfl⟩ : ∃ (g : Fin 64) (q : Fin 256), i = ix2 g q := ⟨i 0, i 1, eq_ix2 i⟩
  refine (shapeCast_apply _ _ (ix2 g q) (ix3 g (0 : Fin 1) q) ?_).trans ?_
  · rw [Shape.rowMajor_val_three, Shape.rowMajor_val_two]
    show (g.val * 1 + 0) * 256 + q.val = g.val * 256 + q.val
    omega
  · show Gcn.poolArr (Region1.layer (V2 m ρ) c) (ix2 g q) = _
    rw [region1_layer]

/-! ## After the host tail -/

theorem V3_of_args (c : Dev nD) (b : Ref sig .tc) (h1 : ∀ w, Pipeline.arrRef spec1 w ≠ b) (h0 : ∀ w, Pipeline.arrRef spec0 w ≠ b) :
    W3 m ρ c (Proc.devRef .tc b) = W1 m ρ c (Proc.devRef .tc b) :=
  (W3_of_ne m ρ c b h1).trans (W2_of_ne m ρ c b h0)

theorem W1_arg6 (c : Dev nD) : W1 m ρ c (Proc.devRef .tc main_arg6) = m ((c : Thread nD τ).loc main_arg6) := by
  show StableHlo.after hostOps0 (W0 m ρ c) (Proc.devRef .tc main_arg6) = _; after_results
theorem W1_arg7 (c : Dev nD) : W1 m ρ c (Proc.devRef .tc main_arg7) = m ((c : Thread nD τ).loc main_arg7) := by
  show StableHlo.after hostOps0 (W0 m ρ c) (Proc.devRef .tc main_arg7) = _; after_results
theorem W1_arg8 (c : Dev nD) : W1 m ρ c (Proc.devRef .tc main_arg8) = m ((c : Thread nD τ).loc main_arg8) := by
  show StableHlo.after hostOps0 (W0 m ρ c) (Proc.devRef .tc main_arg8) = _; after_results
theorem W1_arg9 (c : Dev nD) : W1 m ρ c (Proc.devRef .tc main_arg9) = m ((c : Thread nD τ).loc main_arg9) := by
  show StableHlo.after hostOps0 (W0 m ρ c) (Proc.devRef .tc main_arg9) = _; after_results
theorem W1_arg10 (c : Dev nD) : W1 m ρ c (Proc.devRef .tc main_arg10) = m ((c : Thread nD τ).loc main_arg10) := by
  show StableHlo.after hostOps0 (W0 m ρ c) (Proc.devRef .tc main_arg10) = _; after_results
theorem W1_arg11 (c : Dev nD) : W1 m ρ c (Proc.devRef .tc main_arg11) = m ((c : Thread nD τ).loc main_arg11) := by
  show StableHlo.after hostOps0 (W0 m ρ c) (Proc.devRef .tc main_arg11) = _; after_results

/-- The result as one function of the arguments. -/
abbrev result (c : Dev nD) : FVec Ideal S64x1 .f32 :=
  tail (Gcn.poolArr (layer2 m c)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The fold's value at the result buffer is that function. -/
theorem W4_result (c : Dev nD) : W4 m ρ c (Proc.devRef .tc main_v16) = result m c := by
  show StableHlo.after hostOps2 (W3 m ρ c) (Proc.devRef .tc main_v16) = _
  generalize hZ : W3 m ρ c = Z
  after_results
  subst hZ
  show tail (shapeCast S64x256 (V3 m ρ c main_v3 : S64x1x256.Idx → EReal) shapeCasts_S64x1x256_S64x256)
    (W3 m ρ c (Proc.devRef .tc main_arg6)) (W3 m ρ c (Proc.devRef .tc main_arg7)) (W3 m ρ c (Proc.devRef .tc main_arg8))
    (W3 m ρ c (Proc.devRef .tc main_arg9)) (W3 m ρ c (Proc.devRef .tc main_arg10)) (W3 m ρ c (Proc.devRef .tc main_arg11)) = _
  rw [flat_pooled,
    V3_of_args m ρ c main_arg6 (by decide) (by decide), W1_arg6,
    V3_of_args m ρ c main_arg7 (by decide) (by decide), W1_arg7,
    V3_of_args m ρ c main_arg8 (by decide) (by decide), W1_arg8,
    V3_of_args m ρ c main_arg9 (by decide) (by decide), W1_arg9,
    V3_of_args m ρ c main_arg10 (by decide) (by decide), W1_arg10,
    V3_of_args m ρ c main_arg11 (by decide) (by decide), W1_arg11]

end Cert.KernelIdeal.Whole

end
-- ==== Proof.RefValue.lean ====
/-
  The reference's pooled vectors are the specification's.

  The reference computes, on the whole batch at once: features times weights (one contracted axis), adjacency times
  that product (the graph a batch axis, one contracted axis), the bias broadcast over graphs and nodes and added, the
  negative part cut off — twice — then the sum over the node axis from the zero word, divided by the node count.
  Read at an index, each product is the plain sum over its contracted axis, so entry `(g, n, h)` of a layer is the
  layer's formula for graph `g`, and entry `(g, q)` of the quotient is graph `g`'s pooled value at channel `q`.
  The only arithmetic fact used is that the zero word is zero and adding it changes nothing.
-/
import proofs.«135592_j81432579932318_1_alg».proof.Proof.Gen.ReferenceIdeal.Read
import proofs.«135592_j81432579932318_1_alg».proof.Proof.GcnSpec

noncomputable section

open scoped BigOperators
open Idealize.ShloMosaic Idealize.ShloMosaic.ValueIdx

namespace Cert.ReferenceIdeal.RefValue

open Cert.ReferenceIdeal Cert.ReferenceIdeal.Gen Cert.ReferenceIdeal.Read

variable (x0 : (⟨S64x1024x128, .f32⟩ : BufTy).Contents (Elt Ideal)) (x1 : (⟨S64x1024x1024, .f32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))

/-- The reference's first layer is the specification's first layer of the whole batch. -/
theorem layer1_eq : val_main_v5 (F := Ideal) x0 x1 x2 x3 = Gcn.layerArr (K := 128) x0 x1 x2 (fun h => x3 (ix1 h)) := by
  funext i
  obtain ⟨g, n, h, rfl⟩ : ∃ (g : Fin 64) (n : Fin 1024) (h : Fin 256), i = ix3 g n h := ⟨i 0, i 1, i 2, eq_ix3 i⟩
  rw [Gcn.layerArr_apply, val_main_v5_apply, val_main_v4_apply, val_main_v1_apply, val_main_v3_apply, val_main_v2_apply,
    val_main_call0_v0_apply, val_main_call0_cst_apply]
  unfold Gcn.conv
  refine congrArg₂ max (congrArg₂ (· + ·) (Finset.sum_congr rfl fun k _ => ?_) ?_) rfl
  · rw [val_main_v0_apply]
    refine congrArg₂ (· * ·) (congrArg x1 ?_) (Finset.sum_congr rfl fun f _ => congrArg₂ (· * ·) (congrArg x0 ?_) (congrArg x2 ?_))
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x3 (funext fun a => Fin.ext (by match a with | ⟨0, _⟩ => rfl))

/-- The reference's second layer is the specification's layer applied to its first layer. -/
theorem layer2_eq : val_main_v11 (F := Ideal) x0 x1 x2 x3 x4 x5
    = Gcn.layerArr (K := 256) (val_main_v5 (F := Ideal) x0 x1 x2 x3) x1 x4 (fun h => x5 (ix1 h)) := by
  funext i
  obtain ⟨g, n, h, rfl⟩ : ∃ (g : Fin 64) (n : Fin 1024) (h : Fin 256), i = ix3 g n h := ⟨i 0, i 1, i 2, eq_ix3 i⟩
  rw [Gcn.layerArr_apply, val_main_v11_apply, val_main_v10_apply, val_main_v7_apply, val_main_v9_apply, val_main_v8_apply,
    val_main_call1_v0_apply, val_main_call1_cst_apply]
  unfold Gcn.conv
  refine congrArg₂ max (congrArg₂ (· + ·) (Finset.sum_congr rfl fun k _ => ?_) ?_) rfl
  · rw [val_main_v6_apply]
    refine congrArg₂ (· * ·) (congrArg x1 ?_) (Finset.sum_congr rfl fun f _ => congrArg₂ (· * ·) (congrArg (val_main_v5 (F := Ideal) x0 x1 x2 x3) ?_) (congrArg x4 ?_))
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x5 (funext fun a => Fin.ext (by match a with | ⟨0, _⟩ => rfl))

/-- The reference's mean over the nodes is the specification's pooling of its second layer. -/
theorem pooled_eq : val_main_v14 (F := Ideal) x0 x1 x2 x3 x4 x5 = Gcn.poolArr (val_main_v11 (F := Ideal) x0 x1 x2 x3 x4 x5) := by
  funext i
  obtain ⟨g, q, rfl⟩ : ∃ (g : Fin 64) (q : Fin 256), i = ix2 g q := ⟨i 0, i 1, eq_ix2 i⟩
  rw [Gcn.poolArr_apply, val_main_v14_apply, val_main_v12_apply, val_main_v13_apply, val_main_cst_apply, val_main_cst_0_apply]
  unfold Gcn.pool
  show Ideal.div (Ideal.ofBits .f32 0x00000000#32 + _) (Ideal.ofBits .f32 0x44800000#32) = _
  rw [Ideal.ofBits_zero_f32, zero_add]
  refine congrArg₂ Ideal.div (Finset.sum_congr rfl fun k _ => ?_) rfl
  exact congrArg (val_main_v11 (F := Ideal) x0 x1 x2 x3 x4 x5) (funext fun a => Fin.ext (by match a with | ⟨0, _⟩ => rfl | ⟨1, _⟩ => rfl | ⟨2, _⟩ => rfl))

/-- The reference's pooled vectors, as one function of the arguments: the pooled second layer of the first layer. -/
theorem pooled_spec : val_main_v14 (F := Ideal) x0 x1 x2 x3 x4 x5
    = Gcn.poolArr (Gcn.layerArr (K := 256) (Gcn.layerArr (K := 128) x0 x1 x2 (fun h => x3 (ix1 h))) x1 x4 (fun h => x5 (ix1 h))) := by
  rw [pooled_eq, layer2_eq, layer1_eq]

/-- The three dense layers after the pooling, as one function of the pooled vectors and the six dense arguments. -/
def tail (P : FVec Ideal S64x256 .f32) (a6 : FVec Ideal S256x256 .f32) (a7 : FVec Ideal S256 .f32) (a8 : FVec Ideal S256x256 .f32)
    (a9 : FVec Ideal S256 .f32) (a10 : FVec Ideal S256x1 .f32) (a11 : FVec Ideal S1 .f32) : FVec Ideal S64x1 .f32 :=
  addf
    (Host.dotGeneral (F := Ideal) dot_S64x256_S256x1_S64x1_1_0_0_1_n_n none
      (addf
        (Host.dotGeneral (F := Ideal) dot_S64x256_S256x256_S64x256_1_0_0_1_n_n none
          (addf
            (Host.dotGeneral (F := Ideal) dot_S64x256_S256x256_S64x256_1_0_0_1_n_n none P a6)
            (broadcastInDim S64x256 ![0, 1] bcast_S1x256_S64x256_0_1 (broadcastInDim S1x256 ![1] bcast_S256_S1x256_1 a7)))
          a8)
        (broadcastInDim S64x256 ![0, 1] bcast_S1x256_S64x256_0_1 (broadcastInDim S1x256 ![1] bcast_S256_S1x256_1 a9)))
      a10)
    (broadcastInDim S64x1 ![0, 1] bcast_S1x1_S64x1_0_1 (broadcastInDim S1x1 ![1] bcast_S1_S1x1_1 a11))

variable (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x1, .f32⟩ : BufTy).Contents (Elt Ideal)) (x11 : (⟨S1, .f32⟩ : BufTy).Contents (Elt Ideal))

/-- The reference's result, as one function of the arguments: the dense tail of the pooled second layer of the
    first layer. -/
theorem result_eq : val_main_v26 (F := Ideal) x0 x1 x2 x3 x4 x5 x6 x7 x8 x9 x10 x11
    = tail (Gcn.poolArr (Gcn.layerArr (K := 256) (Gcn.layerArr (K := 128) x0 x1 x2 (fun h => x3 (ix1 h))) x1 x4 (fun h => x5 (ix1 h))))
        x6 x7 x8 x9 x10 x11 := by
  rw [← pooled_spec]
  rfl

end Cert.ReferenceIdeal.RefValue

end
-- ==== Proof.lean ====
/-
  A two-layer graph convolution with mean pooling and three dense layers, in two pallas_calls, against jnp.

  THE CLAIM. For a batch of 64 graphs of 1024 nodes each — node features `x`, adjacency matrices `a` — the kernel
  computes `h₁ = relu(a · (x · W1) + b1)` in a first pallas_call (one grid point per graph), then in a second one
  `relu(a · (h₁ · W2) + b2)` summed over the nodes and divided by the node count, and finishes on the host with three
  dense layers. The reference computes the same on the whole batch with einsums, a sum over the node axis and a
  division. Over the extended reals both are the SAME function of the arguments, entry by entry.

  WHY. A change of float format is the identity on the extended reals. A matrix product into the zero matrix, read
  at an entry, is the plain sum over its contracted axis, for the kernel's products as for the host's; the kernel
  forms the products in the same arrangement as the reference (features by weights first, then the adjacency matrix by
  the result), so no sum is regrouped and no factor moved across a sum: the two sides agree term by term, with
  no appeal to finiteness. The kernel divides its node sum by the float word 1024.0 and so does the reference; the
  reference's sum starts from the zero word, which adds nothing. The dense tail is the same three operations on both
  sides and is never opened.

  HOW. The kernel's run is the fold of its four segments over the launch memory (KernelRun); each pallas_call's output
  array is one whole-batch function of the arrays it reads, because each grid point's block is that function's
  restriction to one graph and the blocks tile the array (Region0, Region1, over the bodies' entries in Layer1Body,
  Layer2Body); reading the fold at the result buffer gives the kernel's function (KernelValue). The reference's run
  and its operations read at an index are generated modules; that its pooled vectors are the same whole-batch function
  is RefValue. The precondition is not used: the frames hold of any launch memory, and the value claim needs no
  finiteness.
-/
import proofs.«135592_j81432579932318_1_alg».proof.Defs
import proofs.«135592_j81432579932318_1_alg».proof.Proof.Gen.Kernel
import proofs.«135592_j81432579932318_1_alg».proof.Proof.Gen.Kernel.Frame
import proofs.«135592_j81432579932318_1_alg».proof.Proof.Gen.KernelIdeal
import proofs.«135592_j81432579932318_1_alg».proof.Proof.Gen.KernelIdeal.Frame
import proofs.«135592_j81432579932318_1_alg».proof.Proof.Gen.ReferenceIdeal
import proofs.«135592_j81432579932318_1_alg».proof.Proof.Gen.ReferenceIdeal.Run
import proofs.«135592_j81432579932318_1_alg».proof.Proof.Gen.ReferenceIdeal.Read
import proofs.«135592_j81432579932318_1_alg».proof.Proof.Gen.Pre_finite_inputs
import proofs.«135592_j81432579932318_1_alg».proof.Proof.KernelRun
import proofs.«135592_j81432579932318_1_alg».proof.Proof.KernelValue
import proofs.«135592_j81432579932318_1_alg».proof.Proof.RefValue
import Idealize.ShloMosaic.Adequacy
import Idealize.ShloMosaic.Init

noncomputable section

namespace Cert.Proof

open Idealize.ShloMosaic Idealize.ShloMosaic.TcCoe Idealize.SL.Sem

/-- The dense tail is one function, whichever program's names spell its dimension numbers. -/
theorem tail_eq (P : FVec Ideal ⟨2, ![64, 256]⟩ .f32) (a6 : FVec Ideal ⟨2, ![256, 256]⟩ .f32) (a7 : FVec Ideal ⟨1, ![256]⟩ .f32)
    (a8 : FVec Ideal ⟨2, ![256, 256]⟩ .f32) (a9 : FVec Ideal ⟨1, ![256]⟩ .f32) (a10 : FVec Ideal ⟨2, ![256, 1]⟩ .f32)
    (a11 : FVec Ideal ⟨1, ![1]⟩ .f32) :
    Cert.ReferenceIdeal.RefValue.tail P a6 a7 a8 a9 a10 a11 = Cert.KernelIdeal.Whole.tail P a6 a7 a8 a9 a10 a11 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result at the dense tail of the pooled second layer of the first layer of the
    arguments: the kernel by the fold of its segments, the reference by its run read at an index. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun _ h c => ⟨(h c).1.trans (Cert.KernelIdeal.Whole.W4_result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v26_eq, Cert.ReferenceIdeal.RefValue.result_eq,
      e0, e1, e2, e3, e4, e5, e6, e7, e8, e9, e10, e11]
    exact tail_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
